-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096 : Shape := ⟨2, ![8, 4096]⟩
abbrev S11008x4096 : Shape := ⟨2, ![11008, 4096]⟩
abbrev S11008x32 : Shape := ⟨2, ![11008, 32]⟩
abbrev S_ : Shape := ⟨0, ![]⟩

class Facts : Prop where
  bcast_S_S8x4096 : S_.BroadcastsInDim S8x4096 (![] : Fin 0 → Fin S8x4096.rank)
  reducesTo_S8x4096_S_d0_1 : S8x4096.ReducesTo [0, 1] S_
  h_S_ : 0 < S_.numel
  bcast_S_S11008x32 : S_.BroadcastsInDim S11008x32 (![] : Fin 0 → Fin S11008x32.rank)
  reducesTo_S11008x32_S_d0_1 : S11008x32.ReducesTo [0, 1] S_

variable [Facts]

def fn {F : FTy → Type} [FloatOps F] (main_arg0 : FVec F S8x4096 .f32) (main_arg1 : IVec S11008x4096 32) (main_arg2 : FVec F S11008x32 .f32) : IVec S_ 1 :=
  let main_v0 : FVec F S8x4096 .f32 := Host.absf main_arg0
  let main_cst : FVec F S_ .f32 := constant S_ .f32 0x7F800000#32
  let main_v1 : FVec F S8x4096 .f32 := broadcastInDim S8x4096 ![] bcast_S_S8x4096 main_cst
  let main_v2 : IVec S8x4096 1 := cmpf .olt main_v0 main_v1
  let main_c : IVec S_ 1 := constantI S_ 1 1#1
  let main_v3 : IVec S_ 1 := (fun x v => Host.reduce IntOp.andi x v reducesTo_S8x4096_S_d0_1 h_S_) main_v2 main_c
  let main_v4 : FVec F S11008x32 .f32 := Host.absf main_arg2
  let main_cst_0 : FVec F S_ .f32 := constant S_ .f32 0x7F800000#32
  let main_v5 : FVec F S11008x32 .f32 := broadcastInDim S11008x32 ![] bcast_S_S11008x32 main_cst_0
  let main_v6 : IVec S11008x32 1 := cmpf .olt main_v4 main_v5
  let main_c_1 : IVec S_ 1 := constantI S_ 1 1#1
  let main_v7 : IVec S_ 1 := (fun x v => Host.reduce IntOp.andi x v reducesTo_S11008x32_S_d0_1 h_S_) main_v6 main_c_1
  let main_v8 : IVec S_ 1 := andi main_v3 main_v7
  main_v8
-- ==== Kernel.lean ====
abbrev S8x4096 : Shape := ⟨2, ![8, 4096]⟩
abbrev S11008x4096 : Shape := ⟨2, ![11008, 4096]⟩
abbrev S11008x32 : Shape := ⟨2, ![11008, 32]⟩
abbrev S8x11008 : Shape := ⟨2, ![8, 11008]⟩
abbrev S256x4096 : Shape := ⟨2, ![256, 4096]⟩
abbrev S256x32 : Shape := ⟨2, ![256, 32]⟩
abbrev S8x256 : Shape := ⟨2, ![8, 256]⟩
abbrev S256x32x128 : Shape := ⟨3, ![256, 32, 128]⟩
abbrev S256x32x1 : Shape := ⟨3, ![256, 32, 1]⟩

abbrev nBuf : Space → Nat
  | .hbm => 4
  | .vmem => 7
  | .smem => 0
  | _ => 0

abbrev bufTy : (tb : Table) → Fin (tcTables nBuf tb) → BufTy
  | .hbm, ⟨0, _⟩ => ⟨S8x4096, .f32⟩
  | .hbm, ⟨1, _⟩ => ⟨S11008x4096, .i32⟩
  | .hbm, ⟨2, _⟩ => ⟨S11008x32, .f32⟩
  | .hbm, ⟨3, _⟩ => ⟨S8x11008, .f32⟩
  | .local _ .vmem, ⟨0, _⟩ => ⟨S8x4096, .f32⟩
  | .local _ .vmem, ⟨1, _⟩ => ⟨S256x4096, .i32⟩
  | .local _ .vmem, ⟨2, _⟩ => ⟨S256x4096, .i32⟩
  | .local _ .vmem, ⟨3, _⟩ => ⟨S256x32, .f32⟩
  | .local _ .vmem, ⟨4, _⟩ => ⟨S256x32, .f32⟩
  | .local _ .vmem, ⟨5, _⟩ => ⟨S8x256, .f32⟩
  | .local _ .vmem, ⟨6, _⟩ => ⟨S8x256, .f32⟩
  | _, _ => ⟨S8x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![43], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S256x4096_S256x4096_0_0 : ∀ a, (![0, 0] : Fin 2 → Nat) a + S256x4096.size a ≤ S256x4096.size a
  h_S256x4096 : 0 < S256x4096.numel
  bitsLt_bf16_f32 : FTy.bits .bf16 < FTy.bits .f32
  shapeCasts_S256x4096_S256x32x128 : S256x4096.ShapeCasts S256x32x128
  inb_S256x32_S256x32_0_0 : ∀ a, (![0, 0] : Fin 2 → Nat) a + S256x32.size a ≤ S256x32.size a
  h_S256x32 : 0 < S256x32.numel
  shapeCasts_S256x32_S256x32x1 : S256x32.ShapeCasts S256x32x1
  broadcasts_S256x32x1_S256x32x128 : S256x32x1.Broadcasts S256x32x128
  shapeCasts_S256x32x128_S256x4096 : S256x32x128.ShapeCasts S256x4096
  inb_S8x4096_S8x4096_0_0 : ∀ a, (![0, 0] : Fin 2 → Nat) a + S8x4096.size a ≤ S8x4096.size a
  h_S8x4096 : 0 < S8x4096.numel
  inb_S8x256_S8x256_0_0 : ∀ a, (![0, 0] : Fin 2 → Nat) a + S8x256.size a ≤ S8x256.size a
  h_S8x256 : 0 < S8x256.numel
  dot_S8x4096_S256x4096_S8x256_1_1_0_0_n_n_wf : DotDims.WF S8x4096 S256x4096 S8x256 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8x4096.size a ≤ S8x4096.size a
  hwx0_0 : ∀ i : grid0.Coords, EltTy.bits .f32 = 32 ∨ (Rect.block (s := S8x4096) S8x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S11008x4096.size a
  hwx0_1 : ∀ i : grid0.Coords, EltTy.bits .i32 = 32 ∨ (Rect.block (s := S11008x4096) S256x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x32.size a ≤ S11008x32.size a
  hwx0_2 : ∀ i : grid0.Coords, EltTy.bits .f32 = 32 ∨ (Rect.block (s := S11008x32) S256x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x256.size a ≤ S8x11008.size a
  hwx0_3 : ∀ i : grid0.Coords, EltTy.bits .f32 = 32 ∨ (Rect.block (s := S8x11008) S8x256.size (cc0_transform_3 i) (hinb0_3 i)).WholeWords (EltTy.packing .f32)

variable [Facts₀]

def dot_S8x4096_S256x4096_S8x256_1_1_0_0_n_n : DotDims S8x4096 S256x4096 S8x256 where
  lhsContracting := [1]
  rhsContracting := [1]
  lhsNonContracting := [0]
  rhsNonContracting := [0]
  lhsBatch := []
  rhsBatch := []
  wf := dot_S8x4096_S256x4096_S8x256_1_1_0_0_n_n_wf

abbrev win0_0 : Pipeline.Window sig grid0 :=
  Pipeline.Window.ofSpec (Memref.whole main_arg0) S8x4096.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S8x256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x4096 : Shape := ⟨2, ![8, 4096]⟩
abbrev S11008x4096 : Shape := ⟨2, ![11008, 4096]⟩
abbrev S11008x32 : Shape := ⟨2, ![11008, 32]⟩
abbrev S_ : Shape := ⟨0, ![]⟩
abbrev S11008x32x128 : Shape := ⟨3, ![11008, 32, 128]⟩
abbrev S11008x32x1 : Shape := ⟨3, ![11008, 32, 1]⟩
abbrev S4096x11008 : Shape := ⟨2, ![4096, 11008]⟩
abbrev S8x11008 : Shape := ⟨2, ![8, 11008]⟩

abbrev nBuf : Space → Nat
  | .hbm => 14
  | .vmem => 0
  | .smem => 0
  | _ => 0

abbrev bufTy : (tb : Table) → Fin (tcTables nBuf tb) → BufTy
  | .hbm, ⟨0, _⟩ => ⟨S8x4096, .f32⟩
  | .hbm, ⟨1, _⟩ => ⟨S11008x4096, .i32⟩
  | .hbm, ⟨2, _⟩ => ⟨S11008x32, .f32⟩
  | .hbm, ⟨3, _⟩ => ⟨S11008x4096, .f32⟩
  | .hbm, ⟨4, _⟩ => ⟨S_, .f32⟩
  | .hbm, ⟨5, _⟩ => ⟨S11008x4096, .f32⟩
  | .hbm, ⟨6, _⟩ => ⟨S11008x4096, .f32⟩
  | .hbm, ⟨7, _⟩ => ⟨S11008x32x128, .f32⟩
  | .hbm, ⟨8, _⟩ => ⟨S11008x32x1, .f32⟩
  | .hbm, ⟨9, _⟩ => ⟨S11008x32x128, .f32⟩
  | .hbm, ⟨10, _⟩ => ⟨S11008x32x128, .f32⟩
  | .hbm, ⟨11, _⟩ => ⟨S11008x4096, .f32⟩
  | .hbm, ⟨12, _⟩ => ⟨S4096x11008, .f32⟩
  | .hbm, ⟨13, _⟩ => ⟨S8x11008, .f32⟩
  | _, _ => ⟨S8x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]

class Facts₀ : Prop where
  bcast_S_S11008x4096 : S_.BroadcastsInDim S11008x4096 (![] : Fin 0 → Fin S11008x4096.rank)
  shapeCasts_S11008x4096_S11008x32x128 : S11008x4096.ShapeCasts S11008x32x128
  bcast_S11008x32_S11008x32x1_0_1 : S11008x32.BroadcastsInDim S11008x32x1 (![0, 1] : Fin 2 → Fin S11008x32x1.rank)
  bcast_S11008x32x1_S11008x32x128_0_1_2 : S11008x32x1.BroadcastsInDim S11008x32x128 (![0, 1, 2] : Fin 3 → Fin S11008x32x128.rank)
  shapeCasts_S11008x32x128_S11008x4096 : S11008x32x128.ShapeCasts S11008x4096
  transposes_S11008x4096_S4096x11008_1_0 : S11008x4096.Transposes [1, 0] S4096x11008
  dot_S8x4096_S4096x11008_S8x11008_1_0_0_1_n_n_wf : DotDims.WF S8x4096 S4096x11008 S8x11008 [1] [0] [0] [1] [] []

variable [Facts₀]

def dot_S8x4096_S4096x11008_S8x11008_1_0_0_1_n_n : DotDims S8x4096 S4096x11008 S8x11008 where
  lhsContracting := [1]
  rhsContracting := [0]
  lhsNonContracting := [0]
  rhsNonContracting := [1]
  lhsBatch := []
  rhsBatch := []
  wf := dot_S8x4096_S4096x11008_S8x11008_1_0_0_1_n_n_wf

class Facts : Prop extends Facts₀ where

variable [Facts]
-- ==== Proof.LibMatmulT.lean ====
/-
  A matrix product with the right operand contracted on its LAST axis, read at an entry, over the extended reals, at any
  extents.

  The product of an `[M, K]` matrix with an `[N, K]` matrix (both contracted on their second axis, no batch axis:
  `L · Rᵀ`) accumulated into the zero matrix is, at `(p, e)`, the sum over the contracted coordinate `f` of the left
  operand at `(p, f)` times the right operand at `(e, f)`: the operand indices the product names at an output index and
  a contraction index are `(p, f)` and `(e, f)`, and the one-axis contraction index is its one coordinate.
-/
import Idealize.ShloMosaic.Lib.ValueIdx
import Idealize.ShloMosaic.PureOps.Ideal.Laws

open scoped BigOperators

noncomputable section

namespace Cert.Lib.MatmulT

open Idealize.ShloMosaic Idealize.ShloMosaic.ValueIdx

variable {M K N : ℕ}

theorem trhs_lhs0 (i : (⟨2, ![M, N]⟩ : Shape).Idx) (q : (DotDims.transposedRhs M K N).contr.Idx) :
    ((DotDims.transposedRhs M K N).lhsIdx i q 0).val = (i 0).val := by
  unfold DotDims.lhsIdx
  rw [dif_neg (show ¬(0 : Fin 2) ∈ (DotDims.transposedRhs M K N).lhsBatch from List.not_mem_nil),
    dif_pos (show (0 : Fin 2) ∈ (DotDims.transposedRhs M K N).lhsNonContracting from List.mem_singleton.mpr rfl)]
  rfl

theorem trhs_lhs1 (i : (⟨2, ![M, N]⟩ : Shape).Idx) (q : (DotDims.transposedRhs M K N).contr.Idx) :
    ((DotDims.transposedRhs M K N).lhsIdx i q 1).val = (q ⟨0, Nat.one_pos⟩).val :=
  (DotDims.transposedRhs M K N).lhsIdx_val_of_single rfl i q

theorem trhs_rhs0 (i : (⟨2, ![M, N]⟩ : Shape).Idx) (q : (DotDims.transposedRhs M K N).contr.Idx) :
    ((DotDims.transposedRhs M K N).rhsIdx i q 0).val = (i 1).val := by
  unfold DotDims.rhsIdx
  rw [dif_neg (show ¬(0 : Fin 2) ∈ (DotDims.transposedRhs M K N).rhsBatch from List.not_mem_nil),
    dif_pos (show (0 : Fin 2) ∈ (DotDims.transposedRhs M K N).rhsNonContracting from List.mem_singleton.mpr rfl)]
  rfl

theorem trhs_rhs1 (i : (⟨2, ![M, N]⟩ : Shape).Idx) (q : (DotDims.transposedRhs M K N).contr.Idx) :
    ((DotDims.transposedRhs M K N).rhsIdx i q 1).val = (q ⟨0, Nat.one_pos⟩).val :=
  (DotDims.transposedRhs M K N).rhsIdx_val_of_single rfl i q

/-- The sum over the product's contraction index, re-indexed by the contracted coordinate. -/
theorem trhs_sum {φ₁ φ₂ : FTy} (L : FVec Ideal ⟨2, ![M, K]⟩ φ₁) (R : FVec Ideal ⟨2, ![N, K]⟩ φ₂) (p : Fin M) (e : Fin N) :
    (∑ k : (DotDims.transposedRhs M K N).contr.Idx,
        L ((DotDims.transposedRhs M K N).lhsIdx (ix2 p e) k) * R ((DotDims.transposedRhs M K N).rhsIdx (ix2 p e) k))
      = ∑ f : Fin K, L (ix2 p f) * R (ix2 e f) := by
  rw [← Equiv.sum_comp (contrEquiv1 (DotDims.transposedRhs M K N) K rfl rfl).symm]
  refine Finset.sum_congr rfl fun f _ => ?_
  have hk := contrEquiv1_symm_val (DotDims.transposedRhs M K N) K rfl rfl f
  have el : (DotDims.transposedRhs M K N).lhsIdx (ix2 p e) ((contrEquiv1 (DotDims.transposedRhs M K N) K rfl rfl).symm f) = ix2 p f :=
    funext fun a => Fin.ext (by
      match a with
      | ⟨0, _⟩ => exact trhs_lhs0 _ _
      | ⟨1, _⟩ => exact (trhs_lhs1 _ _).trans hk)
  have er : (DotDims.transposedRhs M K N).rhsIdx (ix2 p e) ((contrEquiv1 (DotDims.transposedRhs M K N) K rfl rfl).symm f) = ix2 e f :=
    funext fun a => Fin.ext (by
      match a with
      | ⟨0, _⟩ => exact trhs_rhs0 _ _
      | ⟨1, _⟩ => exact (trhs_rhs1 _ _).trans hk)
  rw [el, er]

/-- An `[M, K]` by `[N, K]` product (right operand contracted on its last axis) into the zero accumulator, at `(p, e)`. -/
theorem matmul_trhs_zero_apply {φ₁ φ₂ : FTy} (prec : Option ContractPrecision) (L : FVec Ideal ⟨2, ![M, K]⟩ φ₁)
    (R : FVec Ideal ⟨2, ![N, K]⟩ φ₂) (p : Fin M) (e : Fin N) :
    matmul (DotDims.transposedRhs M K N) prec L R (constant ⟨2, ![M, N]⟩ .f32 0x00000000#32) (ix2 p e)
      = ∑ f : Fin K, L (ix2 p f) * R (ix2 e f) :=
  (Ideal.matmul_constant_zero_apply (DotDims.transposedRhs M K N) prec L R (ix2 p e)).trans (trhs_sum L R p e)

end Cert.Lib.MatmulT

end
-- ==== Proof.Spec.lean ====
/-
  A linear layer whose weights are stored as 4-bit integers with one scale per group of 128 input features.

  The weight of output feature `e` at input feature `k` is `(q e k - 8) · s e (k / 128)`: the stored integer read
  as a real number, re-centred by 8, times the scale of the group of 128 consecutive input features that `k` lies in.
  The layer's output at token `p` and output feature `e` is the sum over the 4096 input features of `x p k` times that
  weight. Everything is over the extended reals; no entry needs to be finite, since both programs form the same products
  in the same order and only the order of the summands could differ.

  Both spellings of the number eight that the two programs use, a 16-bit and a 32-bit pattern, denote the real number 8.
-/
import Idealize.ShloMosaic.Lib.ValueIdx
import Idealize.ShloMosaic.PureOps.Ideal

open scoped BigOperators

noncomputable section

namespace Cert.Dequant

open Idealize.ShloMosaic Idealize.ShloMosaic.ValueIdx

/-- The 16-bit pattern `0x4100` (sign 0, exponent 130, significand 0) is `2 ^ 3 = 8`. -/
theorem eight_bf16 : Ideal.ofBits .bf16 0x4100#16 = ((8 : ℝ) : EReal) := by
  simp [Ideal.ofBits, Ideal.ieee, -EReal.coe_mul]; norm_num

/-- The 32-bit pattern `0x41000000` (sign 0, exponent 130, significand 0) is `2 ^ 3 = 8`. -/
theorem eight_f32 : Ideal.ofBits .f32 0x41000000#32 = ((8 : ℝ) : EReal) := by
  simp [Ideal.ofBits, Ideal.ieee, -EReal.coe_mul]; norm_num

/-- The group of input feature `k`: 128 consecutive input features share one scale, so 4096 features form 32 groups. -/
def grp (k : Fin 4096) : Fin 32 := ⟨k.val / 128, by have := k.isLt; omega⟩

/-- The dequantised weight of output feature `e` at input feature `k`, for a matrix of `N` output features. -/
def weight {N : ℕ} (q : (⟨2, ![N, 4096]⟩ : Shape).Idx → BitVec 32) (s : (⟨2, ![N, 32]⟩ : Shape).Idx → Ideal .f32)
    (e : Fin N) (k : Fin 4096) : EReal :=
  (FloatOps.sitofp (F := Ideal) .f32 (q (ix2 e k)) - ((8 : ℝ) : EReal)) * s (ix2 e (grp k))

/-- The layer's output: token `p`, output feature `e` ↦ `∑ k, x p k · weight e k`. -/
def out {N : ℕ} (x : (⟨2, ![8, 4096]⟩ : Shape).Idx → Ideal .f32) (q : (⟨2, ![N, 4096]⟩ : Shape).Idx → BitVec 32)
    (s : (⟨2, ![N, 32]⟩ : Shape).Idx → Ideal .f32) : (⟨2, ![8, N]⟩ : Shape).Idx → Ideal .f32 :=
  fun i => ∑ k : Fin 4096, x (ix2 (i 0) k) * weight q s (i 1) k

theorem out_apply {N : ℕ} (x : (⟨2, ![8, 4096]⟩ : Shape).Idx → Ideal .f32) (q : (⟨2, ![N, 4096]⟩ : Shape).Idx → BitVec 32)
    (s : (⟨2, ![N, 32]⟩ : Shape).Idx → Ideal .f32) (p : Fin 8) (e : Fin N) :
    out x q s (ix2 p e) = ∑ k : Fin 4096, x (ix2 p k) * weight q s e k := rfl

end Cert.Dequant

end
-- ==== Proof.Layout.lean ====
/-
  The three re-layings a block of 256 output features goes through, read at coordinates.

  A row of 4096 input features is viewed as 32 groups of 128: entry `(e, g, l)` of the grouped view is entry
  `(e, 128 g + l)` of the row view, and back, entry `(e, k)` of the row view is entry `(e, k / 128, k % 128)` of the
  grouped view. A `[256, 32]` table of scales gets a trailing axis of extent one and is then repeated 128 times along
  it: entry `(e, g, l)` of the result is the table's entry `(e, g)`, whatever `l`.
-/
import Idealize.ShloMosaic.Lib.Pipeline.Value
import Idealize.ShloMosaic.Lib.ValueIdx

noncomputable section

namespace Cert.Dequant.Layout

open Idealize.ShloMosaic Idealize.ShloMosaic.ValueIdx

abbrev Rows : Shape := ⟨2, ![256, 4096]⟩
abbrev Groups : Shape := ⟨3, ![256, 32, 128]⟩
abbrev Scales : Shape := ⟨2, ![256, 32]⟩
abbrev ScalesCol : Shape := ⟨3, ![256, 32, 1]⟩

variable {α : Type}

/-- Rows viewed as groups: entry `(e, g, l)` is the row's entry `128 g + l`. -/
theorem group_apply (v : Rows.Idx → α) (h : Rows.ShapeCasts Groups) (e : Fin 256) (g : Fin 32) (l : Fin 128) :
    shapeCast Groups v h (ix3 e g l) = v (ix2 e ⟨g.val * 128 + l.val, by have := g.isLt; have := l.isLt; omega⟩) := by
  refine shapeCast_apply v h (ix3 e g l) _ ?_
  rw [Shape.rowMajor_val_two, Shape.rowMajor_val_three]
  show e.val * 4096 + (g.val * 128 + l.val) = (e.val * 32 + g.val) * 128 + l.val
  omega

/-- Groups viewed as rows: entry `(e, k)` is the entry `(e, k / 128, k % 128)` of the grouped view. -/
theorem ungroup_apply (v : Groups.Idx → α) (h : Groups.ShapeCasts Rows) (e : Fin 256) (k : Fin 4096) :
    shapeCast Rows v h (ix2 e k)
      = v (ix3 e ⟨k.val / 128, by have := k.isLt; omega⟩ ⟨k.val % 128, Nat.mod_lt _ (by decide)⟩) := by
  refine shapeCast_apply v h (ix2 e k) _ ?_
  rw [Shape.rowMajor_val_two, Shape.rowMajor_val_three]
  show (e.val * 32 + k.val / 128) * 128 + k.val % 128 = e.val * 4096 + k.val
  omega

/-- A table with a trailing unit axis appended: entry `(e, g, 0)` is the table's entry `(e, g)`. -/
theorem column_apply (v : Scales.Idx → α) (h : Scales.ShapeCasts ScalesCol) (e : Fin 256) (g : Fin 32) (z : Fin 1) :
    shapeCast ScalesCol v h (ix3 e g z) = v (ix2 e g) := by
  refine shapeCast_apply v h (ix3 e g z) _ ?_
  rw [Shape.rowMajor_val_two, Shape.rowMajor_val_three]
  show e.val * 32 + g.val = (e.val * 32 + g.val) * 1 + z.val
  have := z.isLt
  omega

/-- The column repeated along its unit axis: entry `(e, g, l)` is the column's entry `(e, g, 0)`. -/
theorem repeat_apply (v : ScalesCol.Idx → α) (h : ScalesCol.Broadcasts Groups) (e : Fin 256) (g : Fin 32) (l : Fin 128) :
    broadcastTo Groups v h (ix3 e g l) = v (ix3 e g 0) := by
  refine broadcastTo_apply v h (ix3 e g l) (ix3 e g 0) fun a => ?_
  match a with
  | ⟨0, _⟩ => show e.val = if (256 : ℕ) = 1 then 0 else e.val; rw [if_neg (by decide)]
  | ⟨1, _⟩ => show g.val = if (32 : ℕ) = 1 then 0 else g.val; rw [if_neg (by decide)]
  | ⟨2, _⟩ => show (0 : ℕ) = if (1 : ℕ) = 1 then 0 else l.val; rw [if_pos rfl]

end Cert.Dequant.Layout

end
-- ==== Proof.KernelBlock.lean ====
/-
  What the kernel's body computes from one block of 256 output features, entry by entry, over the extended reals.

  The body turns the block's stored integers into reals (a change of float format is the identity here), subtracts
  eight, views each row of 4096 as 32 groups of 128, multiplies every group by its scale, and views the result as rows
  again: entry `(e, k)` of that matrix is the dequantised weight `(q e k - 8) · s e (k / 128)`. It then multiplies the
  `[8, 4096]` activations by the transpose of that `[256, 4096]` matrix, starting from zero: entry `(p, e)` of the product
  is `∑ k, x p k · weight e k`, the layer's output restricted to the block.
-/
import proofs.«140715_j82540681494871_2_alg».proof.Proof.Gen.KernelIdeal.Skeleton
import proofs.«140715_j82540681494871_2_alg».proof.Proof.LibMatmulT
import proofs.«140715_j82540681494871_2_alg».proof.Proof.Spec
import proofs.«140715_j82540681494871_2_alg».proof.Proof.Layout
import Idealize.ShloMosaic.Lib.Pipeline.Value
import Idealize.ShloMosaic.Lib.ValueIdx

open scoped BigOperators

noncomputable section

namespace Cert.Dequant.Block

open Cert.KernelIdeal Cert.KernelIdeal.Gen Idealize.ShloMosaic Idealize.ShloMosaic.ValueIdx Cert.Dequant

/-- The dequantised block as the body forms it from the block's integers `v0` and scales `v6`. -/
def wblk (v0 : Vec Ideal S256x4096 .i32) (v6 : Vec Ideal S256x32 .f32) : FVec Ideal S256x4096 .bf16 :=
  shapeCast S256x4096
    (mulf
      (shapeCast S256x32x128
        (subf (truncf .bf16 (sitofp .f32 v0) bitsLt_bf16_f32) (broadcast S256x4096 (Scalar.ofBits .bf16 0x4100#16)))
        shapeCasts_S256x4096_S256x32x128)
      (broadcastTo S256x32x128
        (shapeCast S256x32x1 (truncf .bf16 v6 bitsLt_bf16_f32) shapeCasts_S256x32_S256x32x1)
        broadcasts_S256x32x1_S256x32x128))
    shapeCasts_S256x32x128_S256x4096

/-- The body's one stored value is the activations times the transpose of that block, from zero. -/
theorem pay_eq (v0 : Vec Ideal S256x4096 .i32) (v6 : Vec Ideal S256x32 .f32) (v12 : Vec Ideal S8x4096 .f32) :
    k0_pay1 (F := Ideal) v0 v6 v12
      = matmul (DotDims.transposedRhs 8 4096 256) none (truncf .bf16 v12 bitsLt_bf16_f32) (wblk v0 v6)
          (constant ⟨2, ![8, 256]⟩ .f32 0x00000000#32) := rfl

/-- A column index is 128 times its group plus its place in the group. -/
theorem col_split (k : Fin 4096) :
    (⟨k.val / 128 * 128 + k.val % 128, by have := k.isLt; omega⟩ : Fin 4096) = k :=
  Fin.ext (by show k.val / 128 * 128 + k.val % 128 = k.val; omega)

/-- Entry `(e, k)` of the dequantised block is the weight of output feature `e` at input feature `k`. -/
theorem wblk_apply (v0 : Vec Ideal S256x4096 .i32) (v6 : Vec Ideal S256x32 .f32) (e : Fin 256) (k : Fin 4096) :
    wblk v0 v6 (ix2 e k) = weight v0 v6 e k := by
  unfold wblk
  refine (Layout.ungroup_apply _ _ e k).trans ?_
  rw [mulf_apply, Layout.group_apply, Layout.repeat_apply, Layout.column_apply, col_split]
  show (FloatOps.sitofp (F := Ideal) .f32 (v0 (ix2 e k)) - Ideal.ofBits .bf16 0x4100#16) * v6 (ix2 e (grp k)) = _
  rw [eight_bf16]
  rfl

/-- Entry `(p, e)` of the body's stored value: the layer's output on this block. -/
theorem pay_apply (v0 : Vec Ideal S256x4096 .i32) (v6 : Vec Ideal S256x32 .f32) (v12 : Vec Ideal S8x4096 .f32)
    (p : Fin 8) (e : Fin 256) :
    k0_pay1 (F := Ideal) v0 v6 v12 (ix2 p e) = out v12 v0 v6 (ix2 p e) := by
  rw [pay_eq, Cert.Lib.MatmulT.matmul_trhs_zero_apply, out_apply]
  refine Finset.sum_congr rfl fun k _ => ?_
  rw [wblk_apply]
  rfl

end Cert.Dequant.Block

end
-- ==== Proof.KernelValue.lean ====
/-
  The kernel's result array, whole: every entry `(p, o)` is the layer's output `∑ k, x p k · weight o k`.

  The grid has 43 points. Point `t` reads all of the activations, rows `256 t … 256 t + 255` of the stored integers and
  of the scales, and writes columns `256 t … 256 t + 255` of the result. Entry `(p, e)` of what it writes is the layer's
  output at `(p, 256 t + e)`, because the weight of output feature `e` of the block is the weight of output feature
  `256 t + e` of the whole matrix. Column `o` is written by point `o / 256`, so the 43 blocks cover the result.
-/
import proofs.«140715_j82540681494871_2_alg».proof.Proof.Gen.KernelIdeal.Value
import proofs.«140715_j82540681494871_2_alg».proof.Proof.KernelBlock
import Idealize.ShloMosaic.Lib.Pipeline.Value
import Idealize.ShloMosaic.Lib.Tactic

open scoped BigOperators

noncomputable section

namespace Cert.Dequant.Array

open Cert.KernelIdeal Cert.KernelIdeal.Gen Cert.KernelIdeal.Value Idealize.ShloMosaic Idealize.ShloMosaic.TcCoe Idealize.SL.Sem
  Idealize.ShloMosaic.ValueIdx Cert.Dequant
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- Where each window's block sits at point `t`: the activations always at block `(0, 0)`, the stored integers and the
    scales at row block `t`, the result at column block `t` (decided over the 43 points). -/
theorem block_indices : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = t.val :=
  (by decide +kernel : ∀ t : Fin grid0.N, _)

/-- The activations' block at any point is the whole array. -/
theorem acts_block (c : Dev nD) (t : Fin cfg0.N) (y : S8x4096.Idx) (i : S8x4096.Idx)
    (h0 : (i 0).val = (y 0).val) (h1 : (i 1).val = (y 1).val) :
    (iblk m c 0 t : Vec Ideal S8x4096 .f32) y = (V m c main_arg0 : S8x4096.Idx → Elt Ideal .f32) i := by
  obtain ⟨e0, e1, -⟩ := block_indices t
  unfold iblk
  rw [View.read_apply]
  show V m c main_arg0 _ = V m c main_arg0 _
  congr 1
  funext a
  apply Fin.ext
  match a with
  | ⟨0, _⟩ => show win0_0.index t (0 : Fin 2) * 8 + 1 * (y 0).val = (i 0).val; rw [e0, h0]; omega
  | ⟨1, _⟩ => show win0_0.index t (1 : Fin 2) * 4096 + 1 * (y 1).val = (i 1).val; rw [e1, h1]; omega

/-- The stored integers' block at point `t` is rows `256 t …` of the array. -/
theorem ints_block (c : Dev nD) (t : Fin cfg0.N) (y : S256x4096.Idx) (i : S11008x4096.Idx)
    (h0 : (i 0).val = t.val * 256 + (y 0).val) (h1 : (i 1).val = (y 1).val) :
    (iblk m c 1 t : Vec Ideal S256x4096 .i32) y = (V m c main_arg1 : S11008x4096.Idx → Elt Ideal .i32) i := by
  obtain ⟨-, -, e2, e3, -⟩ := block_indices t
  unfold iblk
  rw [View.read_apply]
  show V m c main_arg1 _ = V m c main_arg1 _
  congr 1
  funext a
  apply Fin.ext
  match a with
  | ⟨0, _⟩ => show win0_1.index t (0 : Fin 2) * 256 + 1 * (y 0).val = (i 0).val; rw [e2, h0]; omega
  | ⟨1, _⟩ => show win0_1.index t (1 : Fin 2) * 4096 + 1 * (y 1).val = (i 1).val; rw [e3, h1]; omega

/-- The scales' block at point `t` is rows `256 t …` of the array. -/
theorem scales_block (c : Dev nD) (t : Fin cfg0.N) (y : S256x32.Idx) (i : S11008x32.Idx)
    (h0 : (i 0).val = t.val * 256 + (y 0).val) (h1 : (i 1).val = (y 1).val) :
    (iblk m c 2 t : Vec Ideal S256x32 .f32) y = (V m c main_arg2 : S11008x32.Idx → Elt Ideal .f32) i := by
  obtain ⟨-, -, -, -, e4, e5, -⟩ := block_indices t
  unfold iblk
  rw [View.read_apply]
  show V m c main_arg2 _ = V m c main_arg2 _
  congr 1
  funext a
  apply Fin.ext
  match a with
  | ⟨0, _⟩ => show win0_2.index t (0 : Fin 2) * 256 + 1 * (y 0).val = (i 0).val; rw [e4, h0]; omega
  | ⟨1, _⟩ => show win0_2.index t (1 : Fin 2) * 32 + 1 * (y 1).val = (i 1).val; rw [e5, h1]; omega

/-- ONE BLOCK: from blocks `x0`, `x1`, `x2` that are the whole activations and rows `256 n …` of the stored integers
    and of the scales, the body's value at `(p, e)` is the layer's output at `(p, 256 n + e)`. -/
theorem block_eq (x : S8x4096.Idx → Ideal .f32) (q : S11008x4096.Idx → BitVec 32) (s : S11008x32.Idx → Ideal .f32)
    (x0 : Vec Ideal S8x4096 .f32) (x1 : Vec Ideal S256x4096 .i32) (x2 : Vec Ideal S256x32 .f32) (n : ℕ)
    (h0 : ∀ (y i : S8x4096.Idx), (i 0).val = (y 0).val → (i 1).val = (y 1).val → x0 y = x i)
    (h1 : ∀ (y : S256x4096.Idx) (i : S11008x4096.Idx), (i 0).val = n * 256 + (y 0).val → (i 1).val = (y 1).val → x1 y = q i)
    (h2 : ∀ (y : S256x32.Idx) (i : S11008x32.Idx), (i 0).val = n * 256 + (y 0).val → (i 1).val = (y 1).val → x2 y = s i)
    (j : S8x256.Idx) (i : S8x11008.Idx) (hi0 : (i 0).val = (j 0).val) (hi1 : (i 1).val = n * 256 + (j 1).val) :
    k0_pay1 (F := Ideal) x1 x2 x0 j = out x q s i := by
  obtain ⟨p, e, rfl⟩ : ∃ (p : Fin 8) (e : Fin 256), j = ix2 p e := ⟨j 0, j 1, eq_ix2 j⟩
  obtain ⟨p', e', rfl⟩ : ∃ (p' : Fin 8) (e' : Fin 11008), i = ix2 p' e' := ⟨i 0, i 1, eq_ix2 i⟩
  obtain rfl : p' = p := Fin.ext hi0
  rw [Block.pay_apply, out_apply, out_apply]
  refine Finset.sum_congr rfl fun k _ => ?_
  unfold weight
  rw [h0 (ix2 p' k) (ix2 p' k) rfl rfl, h1 (ix2 e k) (ix2 e' k) hi1 rfl, h2 (ix2 e (grp k)) (ix2 e' (grp k)) hi1 rfl]

/-- WHAT POINT `t` WRITES BACK is block `t` of the layer's output of the argument arrays. -/
theorem flushed_eq (c : Dev nD) (t : Fin cfg0.N) :
    (dats m 0 c).flushed 3 t
      = ((cfg0.win 3).blk t).view.read (Elt Ideal)
          (out (V m c main_arg0 : S8x4096.Idx → Elt Ideal .f32) (V m c main_arg1 : S11008x4096.Idx → Elt Ideal .i32)
            (V m c main_arg2 : S11008x32.Idx → Elt Ideal .f32)) := by
  rw [flushed3]
  unfold out0_3
  rw [View.canon_unit_zero origin]
  simp only [View.ld_unit_zero (S := S256x4096) origin, View.ld_unit_zero (S := S256x32) origin,
    View.ld_unit_zero (S := S8x4096) origin]
  obtain ⟨-, -, -, -, -, -, e6, e7⟩ := block_indices t
  funext j
  show k0_pay1 (F := Ideal) (iblk m c 1 t) (iblk m c 2 t) (iblk m c 0 t) j
    = out (V m c main_arg0 : S8x4096.Idx → Elt Ideal .f32) (V m c main_arg1 : S11008x4096.Idx → Elt Ideal .i32)
        (V m c main_arg2 : S11008x32.Idx → Elt Ideal .f32) (((cfg0.win 3).blk t).view.emb j)
  refine block_eq (V m c main_arg0 : S8x4096.Idx → Elt Ideal .f32) (V m c main_arg1 : S11008x4096.Idx → Elt Ideal .i32)
    (V m c main_arg2 : S11008x32.Idx → Elt Ideal .f32) (iblk m c 0 t) (iblk m c 1 t) (iblk m c 2 t) t.val
    (fun y i h0 h1 => acts_block m c t y i h0 h1) (fun y i h0 h1 => ints_block m c t y i h0 h1)
    (fun y i h0 h1 => scales_block m c t y i h0 h1) j (((cfg0.win 3).blk t).view.emb j) ?_ ?_
  · show win0_3.index t (0 : Fin 2) * 8 + 1 * (j 0).val = (j 0).val
    rw [e6]; omega
  · show win0_3.index t (1 : Fin 2) * 256 + 1 * (j 1).val = t.val * 256 + (j 1).val
    rw [e7]; omega

/-- An index of the result is in point `t`'s block iff each coordinate is in the block's range on its axis. -/
theorem mem_block (t : Fin cfg0.N) (i : S8x11008.Idx) :
    i ∈ ((cfg0.win 3).blk t).view.set ↔ ∀ a : Fin 2, win0_3.index t a * S8x256.size a ≤ (i a).val
      ∧ (i a).val < win0_3.index t a * S8x256.size a + S8x256.size a := by
  show i ∈ ((View.whole main_v0).slice (win0_3.rect t)).set ↔ _
  rw [View.set_slice_whole, Rect.mem_set_unit]
  exact Iff.rfl

/-- Column `o` of the result is written by point `o / 256`. -/
theorem covered (i : S8x11008.Idx) :
    ∃ t : Fin cfg0.N, (cfg0.win 3).flush t = true ∧ i ∈ ((cfg0.win 3).blk t).view.set := by
  have hi0 : (i 0).val < 8 := (i 0).isLt
  have hi1 : (i 1).val < 11008 := (i 1).isLt
  have hN : cfg0.N = 43 := N_0
  have ht : (i 1).val / 256 < cfg0.N := by rw [hN]; omega
  obtain ⟨-, -, -, -, -, -, e6, e7⟩ := block_indices ⟨(i 1).val / 256, ht⟩
  refine ⟨⟨(i 1).val / 256, ht⟩, flush0_3 _, ?_⟩
  rw [mem_block]
  intro a
  match a with
  | ⟨0, _⟩ =>
    show win0_3.index ⟨(i 1).val / 256, ht⟩ (0 : Fin 2) * 8 ≤ (i 0).val
      ∧ (i 0).val < win0_3.index ⟨(i 1).val / 256, ht⟩ (0 : Fin 2) * 8 + 8
    rw [e6]; omega
  | ⟨1, _⟩ =>
    show win0_3.index ⟨(i 1).val / 256, ht⟩ (1 : Fin 2) * 256 ≤ (i 1).val
      ∧ (i 1).val < win0_3.index ⟨(i 1).val / 256, ht⟩ (1 : Fin 2) * 256 + 256
    rw [e7]
    show (i 1).val / 256 * 256 ≤ (i 1).val ∧ (i 1).val < (i 1).val / 256 * 256 + 256
    omega

/-- THE RESULT ARRAY after the run is the layer's output of the argument arrays. -/
theorem final (c : Dev nD) :
    (dats m 0 c).arrAt 3 cfg0.N
      = out (m ((c : Thread nD τ).loc main_arg0) : S8x4096.Idx → Elt Ideal .f32)
          (m ((c : Thread nD τ).loc main_arg1) : S11008x4096.Idx → Elt Ideal .i32)
          (m ((c : Thread nD τ).loc main_arg2) : S11008x32.Idx → Elt Ideal .f32) :=
  (dats m 0 c).arrAt_eq_of_cover 3 _ (fun t _ => flushed_eq m c t) covered

/-- The kernel's run, read: the result array at the layer's output, the arguments unchanged. -/
theorem run : θ_run defs (onTc (τ := τ) (main (F := Ideal))) ⟨m, fun _ => 0, ρ⟩ fun r => ∀ c : Dev nD,
      r.2.mem ((c : Thread nD τ).loc main_v0)
        = out (m ((c : Thread nD τ).loc main_arg0) : S8x4096.Idx → Elt Ideal .f32)
            (m ((c : Thread nD τ).loc main_arg1) : S11008x4096.Idx → Elt Ideal .i32)
            (m ((c : Thread nD τ).loc main_arg2) : S11008x32.Idx → Elt Ideal .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.Dequant.Array

end
-- ==== Proof.RefValue.lean ====
/-
  The reference, entry by entry, is the layer's output over all 11008 output features.

  The reference dequantises the whole `[11008, 4096]` weight matrix the same way — integers to reals, minus eight, rows
  viewed as 32 groups of 128, each group times its scale, viewed as rows again —, transposes it and multiplies the
  activations by the transpose: entry `(p, e)` of the product is `∑ k, x p k · wᵀ k e = ∑ k, x p k · weight e k`.
  Reading the product's right factor at `(k, e)` goes back through the transpose to `(e, k)`, through the two views to
  `(e, k / 128, k % 128)` and `(e, 128 (k / 128) + k % 128) = (e, k)`, and through the two repetitions of the scales to
  `(e, k / 128)`; these are the index equations below.
-/
import proofs.«140715_j82540681494871_2_alg».proof.Proof.Gen.ReferenceIdeal.Read
import proofs.«140715_j82540681494871_2_alg».proof.Proof.Spec
import Idealize.ShloMosaic.Lib.ValueIdx

open scoped BigOperators

noncomputable section

namespace Cert.Dequant.Ref

open Cert.ReferenceIdeal Cert.ReferenceIdeal.Gen Cert.ReferenceIdeal.Read Idealize.ShloMosaic Idealize.ShloMosaic.ValueIdx
  Cert.Dequant

/-- The product's left factor is read at `(p, k)`. -/
theorem left_idx (p : Fin 8) (e : Fin 11008) (k : Fin 4096) : lidx_main_v9 (ix2 p e) k = ix2 p k :=
  funext fun a => Fin.ext (by match a with | ⟨0, _⟩ => rfl | ⟨1, _⟩ => rfl)

/-- Through the transpose and the two views, the stored integers are read at `(e, k)`. -/
theorem weight_idx (p : Fin 8) (e : Fin 11008) (k : Fin 4096) :
    idx_main_v3 (idx_main_v7 (idx_main_v8 (ridx_main_v9 (ix2 p e) k))) = ix2 e k :=
  funext fun a => Fin.ext (by
    have he := e.isLt
    have hk := k.isLt
    match a with
    | ⟨0, _⟩ =>
      show ((((e.val * 4096 + k.val) / 4096) * 32 + (e.val * 4096 + k.val) / 128 % 32) * 128 + (e.val * 4096 + k.val) % 128) / 4096 = e.val
      omega
    | ⟨1, _⟩ =>
      show ((((e.val * 4096 + k.val) / 4096) * 32 + (e.val * 4096 + k.val) / 128 % 32) * 128 + (e.val * 4096 + k.val) % 128) % 4096 = k.val
      omega)

/-- Through the transpose, one view and the two repetitions, the scales are read at `(e, k / 128)`. -/
theorem scale_idx (p : Fin 8) (e : Fin 11008) (k : Fin 4096) :
    idx_main_v4 (idx_main_v5 (idx_main_v7 (idx_main_v8 (ridx_main_v9 (ix2 p e) k)))) = ix2 e (grp k) :=
  funext fun a => Fin.ext (by
    have he := e.isLt
    have hk := k.isLt
    match a with
    | ⟨0, _⟩ =>
      show (e.val * 4096 + k.val) / 4096 = e.val
      omega
    | ⟨1, _⟩ =>
      show (e.val * 4096 + k.val) / 128 % 32 = k.val / 128
      omega)

/-- The reference's result is the layer's output. -/
theorem ref_eq (x0 : (⟨S8x4096, .f32⟩ : BufTy).Contents (Elt Ideal)) (x1 : (⟨S11008x4096, .i32⟩ : BufTy).Contents (Elt Ideal))
    (x2 : (⟨S11008x32, .f32⟩ : BufTy).Contents (Elt Ideal)) :
    val_main_v9 (F := Ideal) x0 x1 x2 = out x0 x1 x2 := by
  funext i
  obtain ⟨p, e, rfl⟩ : ∃ (p : Fin 8) (e : Fin 11008), i = ix2 p e := ⟨i 0, i 1, eq_ix2 i⟩
  rw [val_main_v9_apply, out_apply]
  refine Finset.sum_congr rfl fun k _ => ?_
  rw [left_idx, val_main_v8_apply, val_main_v7_apply, val_main_v6_apply, val_main_v3_apply, val_main_v2_apply,
    val_main_v0_apply, val_main_v1_apply, val_main_cst_apply, val_main_v5_apply, val_main_v4_apply, weight_idx, scale_idx]
  show x0 (ix2 p k) * ((FloatOps.sitofp (F := Ideal) .f32 (x1 (ix2 e k)) - Ideal.ofBits .f32 0x41000000#32) * x2 (ix2 e (grp k))) = _
  rw [eight_f32]
  rfl

end Cert.Dequant.Ref

end
-- ==== Proof.lean ====
/-
  A linear layer with 4-bit weights, one scale per group of 128 input features: the kernel against its reference.

  Both programs compute, for 8 tokens and 11008 output features,
      out p o = ∑ k < 4096, x p k · ((q o k - 8) · s o (k / 128))
  over the extended reals. The kernel does so 256 output features at a time: it dequantises a `[256, 4096]` block of
  weights (integer to real, minus eight, times the group's scale) and multiplies the activations by the block's
  transpose; its 43 blocks of columns cover the result. The reference dequantises the whole weight matrix, transposes
  it and multiplies once. The two number eights are a 16-bit and a 32-bit pattern of the same real number, and a change
  of float format is the identity on the extended reals, so the two sums have the same terms in the same order and no
  entry has to be finite. The idealised kernel is the kernel's own text read over the extended reals: nothing was
  rewritten, so there is nothing to preserve.
-/
import proofs.«140715_j82540681494871_2_alg».proof.Defs
import proofs.«140715_j82540681494871_2_alg».proof.Proof.Gen.Kernel
import proofs.«140715_j82540681494871_2_alg».proof.Proof.Gen.Kernel.Skeleton
import proofs.«140715_j82540681494871_2_alg».proof.Proof.Gen.Kernel.Launch
import proofs.«140715_j82540681494871_2_alg».proof.Proof.Gen.Kernel.Points
import proofs.«140715_j82540681494871_2_alg».proof.Proof.Gen.Kernel.Frame
import proofs.«140715_j82540681494871_2_alg».proof.Proof.Gen.KernelIdeal
import proofs.«140715_j82540681494871_2_alg».proof.Proof.Gen.KernelIdeal.Skeleton
import proofs.«140715_j82540681494871_2_alg».proof.Proof.Gen.KernelIdeal.Launch
import proofs.«140715_j82540681494871_2_alg».proof.Proof.Gen.KernelIdeal.Points
import proofs.«140715_j82540681494871_2_alg».proof.Proof.Gen.KernelIdeal.Frame
import proofs.«140715_j82540681494871_2_alg».proof.Proof.Gen.ReferenceIdeal
import proofs.«140715_j82540681494871_2_alg».proof.Proof.Gen.KernelIdeal.Value
import proofs.«140715_j82540681494871_2_alg».proof.Proof.Gen.ReferenceIdeal.Run
import proofs.«140715_j82540681494871_2_alg».proof.Proof.Gen.ReferenceIdeal.Read
import proofs.«140715_j82540681494871_2_alg».proof.Proof.Gen.Pre_finite_inputs
import proofs.«140715_j82540681494871_2_alg».proof.Proof.KernelValue
import proofs.«140715_j82540681494871_2_alg».proof.Proof.RefValue
import Idealize.ShloMosaic.Adequacy
import Idealize.ShloMosaic.Init

noncomputable section

namespace Cert.Proof

open Idealize.ShloMosaic Idealize.ShloMosaic.TcCoe Idealize.SL.Sem

/-- The kernel as printed runs to the end and leaves its three arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- And the reference: its run, with what it says of the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Nothing was rewritten on the way to the extended reals. -/
theorem preserves : Cert.preserves_Kernel_KernelIdeal := trivial

/-- From memories that agree on the three arguments both programs end with the layer's output of those arguments:
    the kernel block by block, the reference in one product. -/
theorem algebraic : Cert.algebraic_KernelIdeal_ReferenceIdeal := by
  intro m ρ m' ρ' _ hagree
  refine ⟨_, Cert.Dequant.Array.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v9_eq, Cert.Dequant.Ref.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
